-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x28x28 : Shape := ⟨4, ![64, 512, 28, 28]⟩
abbrev S512x32 : Shape := ⟨2, ![512, 32]⟩
abbrev S32x512 : Shape := ⟨2, ![32, 512]⟩
abbrev S_ : Shape := ⟨0, ![]⟩

class Facts : Prop where
  bcast_S_S64x512x28x28 : S_.BroadcastsInDim S64x512x28x28 (![] : Fin 0 → Fin S64x512x28x28.rank)
  reducesTo_S64x512x28x28_S_d0_1_2_3 : S64x512x28x28.ReducesTo [0, 1, 2, 3] S_
  h_S_ : 0 < S_.numel
  bcast_S_S512x32 : S_.BroadcastsInDim S512x32 (![] : Fin 0 → Fin S512x32.rank)
  reducesTo_S512x32_S_d0_1 : S512x32.ReducesTo [0, 1] S_
  bcast_S_S32x512 : S_.BroadcastsInDim S32x512 (![] : Fin 0 → Fin S32x512.rank)
  reducesTo_S32x512_S_d0_1 : S32x512.ReducesTo [0, 1] S_

variable [Facts]

def fn {F : FTy → Type} [FloatOps F] (main_arg0 : FVec F S64x512x28x28 .f32) (main_arg1 : FVec F S512x32 .f32) (main_arg2 : FVec F S32x512 .f32) : IVec S_ 1 :=
  let main_v0 : FVec F S64x512x28x28 .f32 := Host.absf main_arg0
  let main_cst : FVec F S_ .f32 := constant S_ .f32 0x7F800000#32
  let main_v1 : FVec F S64x512x28x28 .f32 := broadcastInDim S64x512x28x28 ![] bcast_S_S64x512x28x28 main_cst
  let main_v2 : IVec S64x512x28x28 1 := cmpf .olt main_v0 main_v1
  let main_c : IVec S_ 1 := constantI S_ 1 1#1
  let main_v3 : IVec S_ 1 := (fun x v => Host.reduce IntOp.andi x v reducesTo_S64x512x28x28_S_d0_1_2_3 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  main_v13
-- ==== Kernel.lean ====
abbrev S64x512x28x28 : Shape := ⟨4, ![64, 512, 28, 28]⟩
abbrev S512x32 : Shape := ⟨2, ![512, 32]⟩
abbrev S32x512 : Shape := ⟨2, ![32, 512]⟩
abbrev S28x28x64x512 : Shape := ⟨4, ![28, 28, 64, 512]⟩
abbrev S784x64x512 : Shape := ⟨3, ![784, 64, 512]⟩
abbrev S_ : Shape := ⟨0, ![]⟩
abbrev S784x8x512 : Shape := ⟨3, ![784, 8, 512]⟩
abbrev S8x512 : Shape := ⟨2, ![8, 512]⟩
abbrev S8x32 : Shape := ⟨2, ![8, 32]⟩
abbrev S1x8x512 : Shape := ⟨3, ![1, 8, 512]⟩

abbrev nBuf : Space → Nat
  | .hbm => 11
  | .vmem => 6
  | .smem => 0
  | _ => 0

abbrev bufTy : (tb : Table) → Fin (tcTables nBuf tb) → BufTy
  | .hbm, ⟨0, _⟩ => ⟨S64x512x28x28, .f32⟩
  | .hbm, ⟨1, _⟩ => ⟨S512x32, .f32⟩
  | .hbm, ⟨2, _⟩ => ⟨S32x512, .f32⟩
  | .hbm, ⟨3, _⟩ => ⟨S28x28x64x512, .f32⟩
  | .hbm, ⟨4, _⟩ => ⟨S784x64x512, .f32⟩
  | .hbm, ⟨5, _⟩ => ⟨S_, .f32⟩
  | .hbm, ⟨6, _⟩ => ⟨S512x32, .f32⟩
  | .hbm, ⟨7, _⟩ => ⟨S512x32, .f32⟩
  | .hbm, ⟨8, _⟩ => ⟨S784x64x512, .f32⟩
  | .hbm, ⟨9, _⟩ => ⟨S28x28x64x512, .f32⟩
  | .hbm, ⟨10, _⟩ => ⟨S64x512x28x28, .f32⟩
  | .local _ .vmem, ⟨0, _⟩ => ⟨S784x8x512, .f32⟩
  | .local _ .vmem, ⟨1, _⟩ => ⟨S784x8x512, .f32⟩
  | .local _ .vmem, ⟨2, _⟩ => ⟨S512x32, .f32⟩
  | .local _ .vmem, ⟨3, _⟩ => ⟨S32x512, .f32⟩
  | .local _ .vmem, ⟨4, _⟩ => ⟨S784x8x512, .f32⟩
  | .local _ .vmem, ⟨5, _⟩ => ⟨S784x8x512, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S784x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S784x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x512x28x28_S28x28x64x512_2_3_0_1 : S64x512x28x28.Transposes [2, 3, 0, 1] S28x28x64x512
  shapeCasts_S28x28x64x512_S784x64x512 : S28x28x64x512.ShapeCasts S784x64x512
  bcast_S_S512x32 : S_.BroadcastsInDim S512x32 (![] : Fin 0 → Fin S512x32.rank)
  shapeCasts_S784x64x512_S28x28x64x512 : S784x64x512.ShapeCasts S28x28x64x512
  transposes_S28x28x64x512_S64x512x28x28_2_3_0_1 : S28x28x64x512.Transposes [2, 3, 0, 1] S64x512x28x28
  inb_S784x8x512_S784x8x512_0_0_0 : ∀ a, (![0, 0, 0] : Fin 3 → Nat) a + S784x8x512.size a ≤ S784x8x512.size a
  h_S784x8x512 : 0 < S784x8x512.numel
  shapeCasts_S784x8x512_S784x8x512 : S784x8x512.ShapeCasts S784x8x512
  reduces_S784x8x512_S8x512 : S784x8x512.Reduces [0] S8x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x512_S32x512_0_0 : ∀ a, (![0, 0] : Fin 2 → Nat) a + S32x512.size a ≤ S32x512.size a
  h_S32x512 : 0 < S32x512.numel
  shapeCasts_S8x512_S1x8x512 : S8x512.ShapeCasts S1x8x512
  broadcasts_S1x8x512_S784x8x512 : S1x8x512.Broadcasts S784x8x512
  dot_S8x512_S512x32_S8x32_1_0_0_1_n_n_wf : DotDims.WF S8x512 S512x32 S8x32 [1] [0] [0] [1] [] []
  dot_S8x32_S32x512_S8x512_1_0_0_1_n_n_wf : DotDims.WF S8x32 S32x512 S8x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S784x8x512.size a ≤ S784x64x512.size a
  hwx0_0 : ∀ i : grid0.Coords, EltTy.bits .f32 = 32 ∨ (Rect.block (s := S784x64x512) S784x8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S784x8x512.size a ≤ S784x64x512.size a
  hwx0_3 : ∀ i : grid0.Coords, EltTy.bits .f32 = 32 ∨ (Rect.block (s := S784x64x512) S784x8x512.size (cc0_transform_3 i) (hinb0_3 i)).WholeWords (EltTy.packing .f32)

variable [Facts₀]

def dot_S8x512_S512x32_S8x32_1_0_0_1_n_n : DotDims S8x512 S512x32 S8x32 where
  lhsContracting := [1]
  rhsContracting := [0]
  lhsNonContracting := [0]
  rhsNonContracting := [1]
  lhsBatch := []
  rhsBatch := []
  wf := dot_S8x512_S512x32_S8x32_1_0_0_1_n_n_wf
def dot_S8x32_S32x512_S8x512_1_0_0_1_n_n : DotDims S8x32 S32x512 S8x512 where
  lhsContracting := [1]
  rhsContracting := [0]
  lhsNonContracting := [0]
  rhsNonContracting := [1]
  lhsBatch := []
  rhsBatch := []
  wf := dot_S8x32_S32x512_S8x512_1_0_0_1_n_n_wf

abbrev win0_0 : Pipeline.Window sig grid0 :=
  Pipeline.Window.ofSpec (Memref.whole main_call0_v1) S784x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S784x8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x28x28 : Shape := ⟨4, ![64, 512, 28, 28]⟩
abbrev S512x32 : Shape := ⟨2, ![512, 32]⟩
abbrev S32x512 : Shape := ⟨2, ![32, 512]⟩
abbrev S64x512x784 : Shape := ⟨3, ![64, 512, 784]⟩
abbrev S_ : Shape := ⟨0, ![]⟩
abbrev S4x512x784 : Shape := ⟨3, ![4, 512, 784]⟩
abbrev S4x512 : Shape := ⟨2, ![4, 512]⟩
abbrev S4x32 : Shape := ⟨2, ![4, 32]⟩
abbrev S4x512x1 : Shape := ⟨3, ![4, 512, 1]⟩

abbrev nBuf : Space → Nat
  | .hbm => 9
  | .vmem => 6
  | .smem => 0
  | _ => 0

abbrev bufTy : (tb : Table) → Fin (tcTables nBuf tb) → BufTy
  | .hbm, ⟨0, _⟩ => ⟨S64x512x28x28, .f32⟩
  | .hbm, ⟨1, _⟩ => ⟨S512x32, .f32⟩
  | .hbm, ⟨2, _⟩ => ⟨S32x512, .f32⟩
  | .hbm, ⟨3, _⟩ => ⟨S64x512x784, .f32⟩
  | .hbm, ⟨4, _⟩ => ⟨S_, .f32⟩
  | .hbm, ⟨5, _⟩ => ⟨S512x32, .f32⟩
  | .hbm, ⟨6, _⟩ => ⟨S512x32, .f32⟩
  | .hbm, ⟨7, _⟩ => ⟨S64x512x784, .f32⟩
  | .hbm, ⟨8, _⟩ => ⟨S64x512x28x28, .f32⟩
  | .local _ .vmem, ⟨0, _⟩ => ⟨S4x512x784, .f32⟩
  | .local _ .vmem, ⟨1, _⟩ => ⟨S4x512x784, .f32⟩
  | .local _ .vmem, ⟨2, _⟩ => ⟨S512x32, .f32⟩
  | .local _ .vmem, ⟨3, _⟩ => ⟨S32x512, .f32⟩
  | .local _ .vmem, ⟨4, _⟩ => ⟨S4x512x784, .f32⟩
  | .local _ .vmem, ⟨5, _⟩ => ⟨S4x512x784, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x512x28x28_S64x512x784 : S64x512x28x28.ShapeCasts S64x512x784
  bcast_S_S512x32 : S_.BroadcastsInDim S512x32 (![] : Fin 0 → Fin S512x32.rank)
  inb_S4x512x784_S4x512x784_0_0_0 : ∀ a, (![0, 0, 0] : Fin 3 → Nat) a + S4x512x784.size a ≤ S4x512x784.size a
  h_S4x512x784 : 0 < S4x512x784.numel
  shapeCasts_S4x512x784_S4x512x784 : S4x512x784.ShapeCasts S4x512x784
  reduces_S4x512x784_S4x512 : S4x512x784.Reduces [2] S4x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x512_S32x512_0_0 : ∀ a, (![0, 0] : Fin 2 → Nat) a + S32x512.size a ≤ S32x512.size a
  h_S32x512 : 0 < S32x512.numel
  shapeCasts_S4x512_S4x512x1 : S4x512.ShapeCasts S4x512x1
  broadcasts_S4x512x1_S4x512x784 : S4x512x1.Broadcasts S4x512x784
  shapeCasts_S64x512x784_S64x512x28x28 : S64x512x784.ShapeCasts S64x512x28x28
  dot_S4x512_S512x32_S4x32_1_0_0_1_n_n_wf : DotDims.WF S4x512 S512x32 S4x32 [1] [0] [0] [1] [] []
  dot_S4x32_S32x512_S4x512_1_0_0_1_n_n_wf : DotDims.WF S4x32 S32x512 S4x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x784.size a ≤ S64x512x784.size a
  hwx0_0 : ∀ i : grid0.Coords, EltTy.bits .f32 = 32 ∨ (Rect.block (s := S64x512x784) S4x512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512x784.size a ≤ S64x512x784.size a
  hwx0_3 : ∀ i : grid0.Coords, EltTy.bits .f32 = 32 ∨ (Rect.block (s := S64x512x784) S4x512x784.size (cc0_transform_3 i) (hinb0_3 i)).WholeWords (EltTy.packing .f32)

variable [Facts₀]

def dot_S4x512_S512x32_S4x32_1_0_0_1_n_n : DotDims S4x512 S512x32 S4x32 where
  lhsContracting := [1]
  rhsContracting := [0]
  lhsNonContracting := [0]
  rhsNonContracting := [1]
  lhsBatch := []
  rhsBatch := []
  wf := dot_S4x512_S512x32_S4x32_1_0_0_1_n_n_wf
def dot_S4x32_S32x512_S4x512_1_0_0_1_n_n : DotDims S4x32 S32x512 S4x512 where
  lhsContracting := [1]
  rhsContracting := [0]
  lhsNonContracting := [0]
  rhsNonContracting := [1]
  lhsBatch := []
  rhsBatch := []
  wf := dot_S4x32_S32x512_S4x512_1_0_0_1_n_n_wf

abbrev win0_0 : Pipeline.Window sig grid0 :=
  Pipeline.Window.ofSpec (Memref.whole main_v0) S4x512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x512x784.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Gate.lean ====
/-
  The squeeze-and-excite block as one function of the argument arrays, on the extended reals.

  For an activation x[b, c, h, w] (64 × 512 × 28 × 28), weights w1[c, j] (512 × 32), w2[j, c] (32 × 512) and a
  scalar K, the block's result is

      out[b, c, h, w] = x[b, c, h, w] · gate_b(c),
      gate_b(c) = logistic (∑_j max (∑_c' (∑_k x[b, c', k / 28, k % 28]) · (w1[c', j] · K), 0) · w2[j, c]),

  the spatial positions (h, w) counted row-major by k = 28·h + w. The gate of one batch entry depends only on that
  entry's 512 × 784 rows, so the same `gate` describes a block of batch entries held as [784, bt, 512] (spatial
  position leading) or as [bt, 512, 784] (spatial position last): `spatialFirst` and `spatialLast` below.
-/
import Idealize.ShloMosaic.PureOps.Ideal
import Idealize.ShloMosaic.Lib.ValueIdx

noncomputable section

open scoped BigOperators

namespace Cert.SE

open Idealize.ShloMosaic Idealize.ShloMosaic.ValueIdx

/-- The gate of one batch entry at channel `c`, from that entry's rows `row c' k` (channel, spatial position) and the
    two weight matrices: pool over the spatial positions, first product, clamp below at zero, second product, logistic. -/
def gate (row : Fin 512 → Fin 784 → EReal) (w1 : Fin 512 → Fin 32 → EReal) (w2 : Fin 32 → Fin 512 → EReal)
    (c : Fin 512) : EReal :=
  Ideal.logistic (∑ j : Fin 32, max (∑ c' : Fin 512, (∑ k : Fin 784, row c' k) * w1 c' j) (Ideal.ofBits .f32 0x00000000#32) * w2 j c)

/-- The gate depends on its arguments entry by entry. -/
theorem gate_congr {row row' : Fin 512 → Fin 784 → EReal} {w1 w1' : Fin 512 → Fin 32 → EReal} {w2 w2' : Fin 32 → Fin 512 → EReal}
    (hr : ∀ c' k, row c' k = row' c' k) (h1 : ∀ c' j, w1 c' j = w1' c' j) (h2 : ∀ j c, w2 j c = w2' j c) (c : Fin 512) :
    gate row w1 w2 c = gate row' w1' w2' c := by
  have e0 : row = row' := funext fun c' => funext fun k => hr c' k
  have e1 : w1 = w1' := funext fun c' => funext fun j => h1 c' j
  have e2 : w2 = w2' := funext fun j => funext fun c => h2 j c
  rw [e0, e1, e2]

/-- The row of a spatial position counted row-major over 28 × 28. -/
def rowOf (k : Fin 784) : Fin 28 := ⟨k.val / 28, by have := k.isLt; omega⟩
/-- Its column. -/
def colOf (k : Fin 784) : Fin 28 := ⟨k.val % 28, by have := k.isLt; omega⟩

/-- The spatial position of row `h`, column `w`. -/
def pos (h w : Fin 28) : Fin 784 := ⟨h.val * 28 + w.val, by have := h.isLt; have := w.isLt; omega⟩

theorem rowOf_pos (h w : Fin 28) : rowOf (pos h w) = h :=
  Fin.ext (by show (h.val * 28 + w.val) / 28 = h.val; have := w.isLt; omega)
theorem colOf_pos (h w : Fin 28) : colOf (pos h w) = w :=
  Fin.ext (by show (h.val * 28 + w.val) % 28 = w.val; have := w.isLt; omega)

/-- The block's result over an array held [spatial position, batch, channel] with `n` batch entries: each element times
    its batch entry's gate at its channel. -/
def spatialFirst {n : Nat} (xt : (⟨3, ![784, n, 512]⟩ : Shape).Idx → EReal) (w1 : (⟨2, ![512, 32]⟩ : Shape).Idx → EReal)
    (w2 : (⟨2, ![32, 512]⟩ : Shape).Idx → EReal) : (⟨3, ![784, n, 512]⟩ : Shape).Idx → EReal := fun i =>
  xt i * gate (fun c' k => xt (ix3 k (i 1) c')) (fun c' j => w1 (ix2 c' j)) (fun j c => w2 (ix2 j c)) (i 2)

/-- The block's result over an array held [batch, channel, spatial position] with `n` batch entries. -/
def spatialLast {n : Nat} (xf : (⟨3, ![n, 512, 784]⟩ : Shape).Idx → EReal) (w1 : (⟨2, ![512, 32]⟩ : Shape).Idx → EReal)
    (w2 : (⟨2, ![32, 512]⟩ : Shape).Idx → EReal) : (⟨3, ![n, 512, 784]⟩ : Shape).Idx → EReal := fun i =>
  xf i * gate (fun c' k => xf (ix3 (i 0) c' k)) (fun c' j => w1 (ix2 c' j)) (fun j c => w2 (ix2 j c)) (i 1)

/-- The block's result over the activation as given, [batch, channel, row, column], the first weight matrix scaled
    entry by entry by `K`. -/
def G (x : (⟨4, ![64, 512, 28, 28]⟩ : Shape).Idx → EReal) (w1 : (⟨2, ![512, 32]⟩ : Shape).Idx → EReal)
    (w2 : (⟨2, ![32, 512]⟩ : Shape).Idx → EReal) (K : EReal) : (⟨4, ![64, 512, 28, 28]⟩ : Shape).Idx → EReal := fun i =>
  x i * gate (fun c' k => x (ix4 (i 0) c' (rowOf k) (colOf k))) (fun c' j => w1 (ix2 c' j) * K) (fun j c => w2 (ix2 j c)) (i 1)

end Cert.SE

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.KernelBody.lean ====
/-
  What the kernel's body stores, element by element, at the exact values.

  The body holds a block [784, 8, 512] (spatial position, batch entry, channel) of the re-laid activation, the scaled
  first weight matrix and the second one. It pools the block over its leading axis, multiplies by the two matrices with
  a clamp at zero between them, applies the logistic function and multiplies every spatial position of a batch entry by
  that entry's gate. So the stored value at (k, p, c) is the loaded one times `SE.gate` of batch entry p's rows at c.
-/
import proofs.«157007_g2000404850106807_pallasbulk_276_18_alg».proof.Proof.Gen.KernelIdeal.Skeleton
import proofs.«157007_g2000404850106807_pallasbulk_276_18_alg».proof.Proof.Gate
import proofs.«157007_g2000404850106807_pallasbulk_276_18_alg».proof.Proof.LibPlainMatmul
import Idealize.ShloMosaic.Lib.ValueLayout
import Idealize.ShloMosaic.PureOps.Ideal.Laws

noncomputable section

open scoped BigOperators

namespace Cert.KernelIdeal.Body

open Idealize.ShloMosaic Idealize.ShloMosaic.ValueIdx
open Cert.KernelIdeal Cert.KernelIdeal.Gen

/-- The pool: the sum over the block's leading axis, at batch entry `p` and channel `c`, is the sum over the spatial
    positions of the block's entries there. -/
theorem pool_apply (v : FVec Ideal S784x8x512 .f32) (p : Fin 8) (c : Fin 512) :
    multiReduction .add [0] S8x512 v 0x00000000#32 reduces_S784x8x512_S8x512 (.inl rfl) rfl (ix2 p c)
      = ∑ k : Fin 784, v (ix3 k p c) :=
  (Ideal.multiReduction_add_single v 0x00000000#32 reduces_S784x8x512_S8x512 (.inl rfl) rfl (ix2 p c)).trans
    (Finset.sum_congr rfl fun k _ => congrArg v (funext fun a => Fin.ext (by
      match a with
      | ⟨0, _⟩ => rfl
      | ⟨1, _⟩ => rfl
      | ⟨2, _⟩ => rfl)))

/-- The stored value at (k, p, c): the loaded entry times the gate of batch entry `p` at channel `c`. -/
theorem payload_apply (x0 : FVec Ideal S784x8x512 .f32) (x1 : FVec Ideal S512x32 .f32) (x2 : FVec Ideal S32x512 .f32)
    (k : Fin 784) (p : Fin 8) (c : Fin 512) :
    k0_pay1 (F := Ideal) x0 x1 x2 (ix3 k p c)
      = x0 (ix3 k p c) * SE.gate (fun c' k' => x0 (ix3 k' p c')) (fun c' j => x1 (ix2 c' j)) (fun j c => x2 (ix2 j c)) c := by
  unfold k0_pay1
  simp only [shapeCast_self]
  refine congrArg (x0 (ix3 k p c) * ·) ?_
  refine (broadcastTo_apply _ _ (ix3 k p c) (ix3 (0 : Fin 1) p c) (fun a => by
    match a with
    | ⟨0, _⟩ => rfl
    | ⟨1, _⟩ => rfl
    | ⟨2, _⟩ => rfl)).trans ?_
  refine (shapeCast_ab_1ab_apply _ _ (0 : Fin 1) p c).trans ?_
  unfold SE.gate
  refine congrArg Ideal.logistic ?_
  refine (matmul_plain_zero_apply none _ x2 p c).trans ?_
  refine Finset.sum_congr rfl fun j _ => ?_
  refine congrArg (· * x2 (ix2 j c)) ?_
  refine congrArg (max · (Ideal.ofBits .f32 0x00000000#32)) ?_
  refine (matmul_plain_zero_apply none _ x1 p j).trans ?_
  refine Finset.sum_congr rfl fun c' _ => ?_
  refine congrArg (· * x1 (ix2 c' j)) ?_
  exact pool_apply x0 p c'

/-- A block whose batch entry `p` is batch entry `e p` of a [784, 64, 512] array `X`: what the body stores at (k, p, c)
    is the whole-array function `SE.spatialFirst X` at (k, e p, c), the two weight matrices being the ones loaded. -/
theorem block_value (X : S784x64x512.Idx → EReal) (x0 : FVec Ideal S784x8x512 .f32) (x1 : FVec Ideal S512x32 .f32)
    (x2 : FVec Ideal S32x512 .f32) (e : Fin 8 → Fin 64) (h0 : ∀ k p q, x0 (ix3 k p q) = X (ix3 k (e p) q))
    (k : Fin 784) (p : Fin 8) (q : Fin 512) :
    k0_pay1 (F := Ideal) x0 x1 x2 (ix3 k p q) = SE.spatialFirst X x1 x2 (ix3 k (e p) q) := by
  refine (payload_apply x0 x1 x2 k p q).trans ?_
  unfold SE.spatialFirst
  show x0 (ix3 k p q) * SE.gate _ _ _ q = X (ix3 k (e p) q) * SE.gate _ _ _ q
  rw [h0 k p q]
  exact congrArg (X (ix3 k (e p) q) * ·) (SE.gate_congr (fun c' k' => h0 k' p c') (fun _ _ => rfl) (fun _ _ => rfl) q)

end Cert.KernelIdeal.Body

end
-- ==== Proof.KernelArray.lean ====
/-
  From blocks to the array: what the kernel's output array holds after the last grid point.

  Grid point t works on batch entries 8t … 8t + 7: its input block is rows [·, 8t + p, ·] of the re-laid activation,
  both weight matrices are whole, and it writes back rows [·, 8t + p, ·] of the output. Each written block is the
  restriction of ONE whole-array function (`SE.spatialFirst` of the arrays as the region finds them), and the eight
  blocks tile the output, so the output ends holding that function.
-/
import proofs.«157007_g2000404850106807_pallasbulk_276_18_alg».proof.Proof.Gen.KernelIdeal.Frame
import proofs.«157007_g2000404850106807_pallasbulk_276_18_alg».proof.Proof.KernelBody
import Idealize.ShloMosaic.Lib.Pipeline.Value

set_option maxRecDepth 16384

noncomputable section

namespace Cert.KernelIdeal.Arr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the activation's and the output's blocks move along the batch axis with the
    point, nothing else moves. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

theorem point_lt (t : Fin cfg0.N) : t.val < 8 := lt_of_lt_of_eq t.isLt N_0

/-- Batch entry `p` of point `t`'s block is batch entry 8t + p of the array. -/
def entry (t : Fin cfg0.N) (p : Fin 8) : Fin 64 := ⟨t.val * 8 + p.val, by have := point_lt t; have := p.isLt; omega⟩

/-- The whole-array function the output ends holding, of the arrays as the region finds them. -/
def whole (c : Dev nD) : S784x64x512.Idx → EReal :=
  SE.spatialFirst (V m c main_call0_v1 : S784x64x512.Idx → EReal) (V m c main_call0_v3 : S512x32.Idx → EReal)
    (V m c main_arg2 : S32x512.Idx → EReal)

/-- The activation's block at point `t`, element by element. -/
theorem iblk0_apply (c : Dev nD) (t : Fin cfg0.N) (k : Fin 784) (p : Fin 8) (q : Fin 512) :
    iblk m c 0 t (ix3 k p q) = (V m c main_call0_v1 : S784x64x512.Idx → EReal) (ix3 k (entry t p) q) := by
  show V m c main_call0_v1 (((cfg0.win 0).blk t).view.emb (ix3 k p q)) = _
  have he : ((cfg0.win 0).blk t).view.emb (ix3 k p q) = ix3 k (entry t p) q := by
    obtain ⟨e0, e1, e2, -⟩ := idx_facts t
    funext a; apply Fin.ext
    match a with
    | ⟨0, _⟩ => show win0_0.index t (0 : Fin 3) * 784 + 1 * k.val = k.val; omega
    | ⟨1, _⟩ => show win0_0.index t (1 : Fin 3) * 8 + 1 * p.val = t.val * 8 + p.val; omega
    | ⟨2, _⟩ => show win0_0.index t (2 : Fin 3) * 512 + 1 * q.val = q.val; omega
  rw [he]

/-- The first weight matrix's block is the whole matrix. -/
theorem iblk1_eq (c : Dev nD) (t : Fin cfg0.N) : iblk m c 1 t = (V m c main_call0_v3 : S512x32.Idx → EReal) := by
  funext z
  show V m c main_call0_v3 (((cfg0.win 1).blk t).view.emb z) = _
  have he : ((cfg0.win 1).blk t).view.emb z = z := by
    obtain ⟨-, -, -, e0, e1, -⟩ := idx_facts t
    funext a; apply Fin.ext
    match a with
    | ⟨0, _⟩ => show win0_1.index t (0 : Fin 2) * 512 + 1 * (z 0).val = (z 0).val; omega
    | ⟨1, _⟩ => show win0_1.index t (1 : Fin 2) * 32 + 1 * (z 1).val = (z 1).val; omega
  rw [he]

/-- The second weight matrix's block is the whole matrix. -/
theorem iblk2_eq (c : Dev nD) (t : Fin cfg0.N) : iblk m c 2 t = (V m c main_arg2 : S32x512.Idx → EReal) := by
  funext z
  show V m c main_arg2 (((cfg0.win 2).blk t).view.emb z) = _
  have he : ((cfg0.win 2).blk t).view.emb z = z := by
    obtain ⟨-, -, -, -, -, e0, e1, -⟩ := idx_facts t
    funext a; apply Fin.ext
    match a with
    | ⟨0, _⟩ => show win0_2.index t (0 : Fin 2) * 32 + 1 * (z 0).val = (z 0).val; omega
    | ⟨1, _⟩ => show win0_2.index t (1 : Fin 2) * 512 + 1 * (z 1).val = (z 1).val; omega
  rw [he]

/-- Where element (k, p, q) of the output's block at point `t` sits in the array. -/
theorem emb3_apply (t : Fin cfg0.N) (k : Fin 784) (p : Fin 8) (q : Fin 512) :
    ((cfg0.win 3).blk t).view.emb (ix3 k p q) = ix3 k (entry t p) q := by
  obtain ⟨-, -, -, -, -, -, -, e0, e1, e2⟩ := idx_facts t
  funext a; apply Fin.ext
  match a with
  | ⟨0, _⟩ => show win0_3.index t (0 : Fin 3) * 784 + 1 * k.val = k.val; omega
  | ⟨1, _⟩ => show win0_3.index t (1 : Fin 3) * 8 + 1 * p.val = t.val * 8 + p.val; omega
  | ⟨2, _⟩ => show win0_3.index t (2 : Fin 3) * 512 + 1 * q.val = q.val; omega

/-- What point `t` writes back is block `t` of the whole-array function. -/
theorem flushed_eq (c : Dev nD) (t : Fin cfg0.N) :
    (dats m 0 c).flushed 3 t = ((cfg0.win 3).blk t).view.read (Elt Ideal) (whole m c) := by
  show (cfg0.win 3).cut (grid0.coords t) ((dats m 0 c).after 3 t) = _
  rw [after0_3]
  unfold out0_3
  rw [View.canon_unit_zero hz3]
  simp only [View.ld_unit_zero (S := S784x8x512) hz3, View.ld_unit_zero (S := S512x32) hz2, View.ld_unit_zero (S := S32x512) hz2]
  rw [iblk1_eq, iblk2_eq]
  funext y
  obtain ⟨k, p, q, rfl⟩ : ∃ (k : Fin 784) (p : Fin 8) (q : Fin 512), y = ix3 k p q := ⟨y 0, y 1, y 2, @eq_ix3 784 8 512 y⟩
  show k0_pay1 (F := Ideal) (iblk m c 0 t) _ _ (ix3 k p q) = whole m c (((cfg0.win 3).blk t).view.emb (ix3 k p q))
  rw [emb3_apply]
  exact Body.block_value (V m c main_call0_v1 : S784x64x512.Idx → EReal) (iblk m c 0 t) (V m c main_call0_v3 : S512x32.Idx → EReal)
    (V m c main_arg2 : S32x512.Idx → EReal) (entry t) (fun k p q => iblk0_apply m c t k p q) k p q

/-- An index of the output array is in point `t`'s block iff each coordinate is in the block's range on its axis. -/
theorem mem_blk (t : Fin cfg0.N) (i : S784x64x512.Idx) :
    i ∈ ((cfg0.win 3).blk t).view.set ↔ ∀ a : Fin 3, win0_3.index t a * S784x8x512.size a ≤ (i a).val ∧ (i a).val < win0_3.index t a * S784x8x512.size a + S784x8x512.size a := by
  show i ∈ ((View.whole main_call0_v4).slice (win0_3.rect t)).set ↔ _
  rw [View.set_slice_whole, Rect.mem_set_unit]
  exact Iff.rfl

/-- Every index of the output array is in the block of the point its batch entry belongs to. -/
theorem cover (i : S784x64x512.Idx) : ∃ t : Fin cfg0.N, (cfg0.win 3).flush t = true ∧ i ∈ ((cfg0.win 3).blk t).view.set := by
  have h0 : (i 0).val < 784 := (i 0).isLt
  have h1 : (i 1).val < 64 := (i 1).isLt
  have h2 : (i 2).val < 512 := (i 2).isLt
  have hN : cfg0.N = 8 := N_0
  refine ⟨⟨(i 1).val / 8, by rw [hN]; omega⟩, flush0_3 _, ?_⟩
  obtain ⟨-, -, -, -, -, -, -, e0, e1, e2⟩ := idx_facts ⟨(i 1).val / 8, by rw [hN]; omega⟩
  rw [mem_blk]
  intro a
  match a with
  | ⟨0, _⟩ =>
    show win0_3.index _ (0 : Fin 3) * 784 ≤ (i 0).val ∧ (i 0).val < win0_3.index _ (0 : Fin 3) * 784 + 784
    rw [e0]; omega
  | ⟨1, _⟩ =>
    show win0_3.index _ (1 : Fin 3) * 8 ≤ (i 1).val ∧ (i 1).val < win0_3.index _ (1 : Fin 3) * 8 + 8
    rw [e1]; show (i 1).val / 8 * 8 ≤ (i 1).val ∧ (i 1).val < (i 1).val / 8 * 8 + 8; omega
  | ⟨2, _⟩ =>
    show win0_3.index _ (2 : Fin 3) * 512 ≤ (i 2).val ∧ (i 2).val < win0_3.index _ (2 : Fin 3) * 512 + 512
    rw [e2]; omega

/-- The output array after the last point is the whole-array function. -/
theorem final (c : Dev nD) : (dats m 0 c).arrAt 3 cfg0.N = whole m c :=
  (dats m 0 c).arrAt_eq_of_cover 3 (whole m c) (fun t _ => flushed_eq m c t) cover

end Cert.KernelIdeal.Arr

end
-- ==== Proof.Layout.lean ====
/-
  The two programs hold the activation in different arrangements; this module reads each arrangement at an index.

  One program transposes x[b, c, h, w] to [h, w, b, c] and flattens the two spatial axes, works on [k, b, c] with
  k = 28·h + w, and undoes both steps at the end. The other flattens [b, c, h, w] to [b, c, k] and restores it at the
  end. Both scale the first weight matrix by one scalar first. Read index by index, either way the result is `SE.G`.
-/
import proofs.«157007_g2000404850106807_pallasbulk_276_18_alg».proof.Proof.Gate
import Idealize.ShloMosaic.Lib.ValueLayout

noncomputable section

open scoped BigOperators

namespace Cert.SE

open Idealize.ShloMosaic Idealize.ShloMosaic.ValueIdx

abbrev SX : Shape := ⟨4, ![64, 512, 28, 28]⟩
abbrev ST4 : Shape := ⟨4, ![28, 28, 64, 512]⟩
abbrev ST3 : Shape := ⟨3, ![784, 64, 512]⟩
abbrev SF3 : Shape := ⟨3, ![64, 512, 784]⟩
abbrev SW1 : Shape := ⟨2, ![512, 32]⟩
abbrev SW2 : Shape := ⟨2, ![32, 512]⟩
abbrev S0 : Shape := ⟨0, ![]⟩

/-- The first weight matrix times a scalar spread over it, at (c', j): the entry times the scalar. -/
theorem scaled_apply (w1 : FVec Ideal SW1 .f32) (Kc : FVec Ideal S0 .f32) (hb : S0.BroadcastsInDim SW1 ![])
    (c' : Fin 512) (j : Fin 32) :
    mulf w1 (broadcastInDim SW1 ![] hb Kc) (ix2 c' j) = w1 (ix2 c' j) * Kc ix0 :=
  congrArg (w1 (ix2 c' j) * ·) (broadcastInDim_apply ![] hb Kc (ix2 c' j) ix0 fun a => a.elim0)

/-- The activation transposed to [h, w, b, c] and flattened to [k, b, c], at (k, b, c): x at (b, c, k / 28, k % 28). -/
theorem relaid_apply (x : SX.Idx → EReal) (ht : SX.Transposes [2, 3, 0, 1] ST4) (hc : ST4.ShapeCasts ST3)
    (k : Fin 784) (b : Fin 64) (c : Fin 512) :
    shapeCast ST3 (transpose ST4 [2, 3, 0, 1] x ht) hc (ix3 k b c) = x (ix4 b c (rowOf k) (colOf k)) := by
  refine (shapeCast_apply _ hc (ix3 k b c) (ix4 (rowOf k) (colOf k) b c) ?_).trans ?_
  · rw [Shape.rowMajor_val_four, Shape.rowMajor_val_three]
    show (((k.val / 28) * 28 + k.val % 28) * 64 + b.val) * 512 + c.val = (k.val * 64 + b.val) * 512 + c.val
    omega
  · exact transpose_apply _ x ht _ _ fun a => by
      match a with
      | ⟨0, _⟩ => rfl
      | ⟨1, _⟩ => rfl
      | ⟨2, _⟩ => rfl
      | ⟨3, _⟩ => rfl

/-- A [k, b, c] array unflattened to [h, w, b, c] and transposed back to [b, c, h, w], at (b, c, h, w): the array at
    (28·h + w, b, c). -/
theorem unrelaid_apply (Y : ST3.Idx → EReal) (hc : ST3.ShapeCasts ST4) (ht : ST4.Transposes [2, 3, 0, 1] SX)
    (b : Fin 64) (c : Fin 512) (h w : Fin 28) :
    transpose SX [2, 3, 0, 1] (shapeCast ST4 Y hc) ht (ix4 b c h w) = Y (ix3 (pos h w) b c) := by
  refine (transpose_apply _ _ ht (ix4 b c h w) (ix4 h w b c) fun a => by
      match a with
      | ⟨0, _⟩ => rfl
      | ⟨1, _⟩ => rfl
      | ⟨2, _⟩ => rfl
      | ⟨3, _⟩ => rfl).trans ?_
  refine shapeCast_apply Y hc (ix4 h w b c) (ix3 (pos h w) b c) ?_
  rw [Shape.rowMajor_val_four, Shape.rowMajor_val_three]
  show ((h.val * 28 + w.val) * 64 + b.val) * 512 + c.val = ((h.val * 28 + w.val) * 64 + b.val) * 512 + c.val
  rfl

/-- The activation flattened to [b, c, k], at (b, c, k): x at (b, c, k / 28, k % 28). -/
theorem flat_apply (x : SX.Idx → EReal) (hc : SX.ShapeCasts SF3) (b : Fin 64) (c : Fin 512) (k : Fin 784) :
    shapeCast SF3 x hc (ix3 b c k) = x (ix4 b c (rowOf k) (colOf k)) := by
  refine shapeCast_apply x hc (ix3 b c k) (ix4 b c (rowOf k) (colOf k)) ?_
  rw [Shape.rowMajor_val_four, Shape.rowMajor_val_three]
  show ((b.val * 512 + c.val) * 28 + k.val / 28) * 28 + k.val % 28 = (b.val * 512 + c.val) * 784 + k.val
  omega

/-- A [b, c, k] array unflattened to [b, c, h, w], at (b, c, h, w): the array at (b, c, 28·h + w). -/
theorem unflat_apply (Y : SF3.Idx → EReal) (hc : SF3.ShapeCasts SX) (b : Fin 64) (c : Fin 512) (h w : Fin 28) :
    shapeCast SX Y hc (ix4 b c h w) = Y (ix3 b c (pos h w)) := by
  refine shapeCast_apply Y hc (ix4 b c h w) (ix3 b c (pos h w)) ?_
  rw [Shape.rowMajor_val_four, Shape.rowMajor_val_three]
  show (b.val * 512 + c.val) * 784 + (h.val * 28 + w.val) = ((b.val * 512 + c.val) * 28 + h.val) * 28 + w.val
  omega

/-- Spatial position leading: re-lay, scale, apply the block over [k, b, c], lay back — that is `G`. -/
theorem spatialFirst_layout (x : SX.Idx → EReal) (w1 : FVec Ideal SW1 .f32) (w2 : FVec Ideal SW2 .f32) (Kc : FVec Ideal S0 .f32)
    (ht1 : SX.Transposes [2, 3, 0, 1] ST4) (hc1 : ST4.ShapeCasts ST3) (hb : S0.BroadcastsInDim SW1 ![])
    (hc2 : ST3.ShapeCasts ST4) (ht2 : ST4.Transposes [2, 3, 0, 1] SX) :
    transpose SX [2, 3, 0, 1] (shapeCast ST4 (spatialFirst (shapeCast ST3 (transpose ST4 [2, 3, 0, 1] x ht1) hc1)
        (mulf w1 (broadcastInDim SW1 ![] hb Kc)) w2) hc2) ht2
      = G x w1 w2 (Kc ix0) := by
  funext i
  obtain ⟨b, c, h, w, rfl⟩ : ∃ (b : Fin 64) (c : Fin 512) (h w : Fin 28), i = ix4 b c h w := ⟨i 0, i 1, i 2, i 3, eq_ix4 i⟩
  refine (unrelaid_apply _ hc2 ht2 b c h w).trans ?_
  unfold spatialFirst G
  show shapeCast ST3 (transpose ST4 [2, 3, 0, 1] x ht1) hc1 (ix3 (pos h w) b c) * gate _ _ _ c = x (ix4 b c h w) * gate _ _ _ c
  rw [relaid_apply x ht1 hc1 (pos h w) b c, rowOf_pos, colOf_pos]
  exact congrArg (x (ix4 b c h w) * ·) (gate_congr (fun c' k => relaid_apply x ht1 hc1 k b c')
    (fun c' j => scaled_apply w1 Kc hb c' j) (fun _ _ => rfl) c)

/-- Spatial position last: flatten, scale, apply the block over [b, c, k], unflatten — that is `G` too. -/
theorem spatialLast_layout (x : SX.Idx → EReal) (w1 : FVec Ideal SW1 .f32) (w2 : FVec Ideal SW2 .f32) (Kc : FVec Ideal S0 .f32)
    (hc1 : SX.ShapeCasts SF3) (hb : S0.BroadcastsInDim SW1 ![]) (hc2 : SF3.ShapeCasts SX) :
    shapeCast SX (spatialLast (shapeCast SF3 x hc1) (mulf w1 (broadcastInDim SW1 ![] hb Kc)) w2) hc2
      = G x w1 w2 (Kc ix0) := by
  funext i
  obtain ⟨b, c, h, w, rfl⟩ : ∃ (b : Fin 64) (c : Fin 512) (h w : Fin 28), i = ix4 b c h w := ⟨i 0, i 1, i 2, i 3, eq_ix4 i⟩
  refine (unflat_apply _ hc2 b c h w).trans ?_
  unfold spatialLast G
  show shapeCast SF3 x hc1 (ix3 b c (pos h w)) * gate _ _ _ c = x (ix4 b c h w) * gate _ _ _ c
  rw [flat_apply x hc1 b c (pos h w), rowOf_pos, colOf_pos]
  exact congrArg (x (ix4 b c h w) * ·) (gate_congr (fun c' k => flat_apply x hc1 b c' k)
    (fun c' j => scaled_apply w1 Kc hb c' j) (fun _ _ => rfl) c)

end Cert.SE

end
-- ==== Proof.KernelRun.lean ====
/-
  The kernel's run, read: its result array as `SE.G` of the argument arrays.

  Before the region the program re-lays the activation to [k, b, c] and scales the first weight matrix by a scalar
  constant; the region's output array ends holding `SE.spatialFirst` of those (the blocks-to-array module); after the
  region the program lays the result back to [b, c, h, w]. Composed and read index by index that is `SE.G`.
-/
import proofs.«157007_g2000404850106807_pallasbulk_276_18_alg».proof.Proof.KernelArray
import proofs.«157007_g2000404850106807_pallasbulk_276_18_alg».proof.Proof.Layout
import Idealize.ShloMosaic.Lib.StableHlo.Run

set_option maxRecDepth 16384

noncomputable section

namespace Cert.KernelIdeal.Run

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The region finds the activation re-laid: transposed to [h, w, b, c], the spatial axes flattened. -/
theorem V_relaid (c : Dev nD) : (V m c main_call0_v1 : S784x64x512.Idx → EReal)
    = shapeCast S784x64x512 (transpose S28x28x64x512 [2, 3, 0, 1] (m ((c : Thread nD τ).loc main_arg0) : S64x512x28x28.Idx → EReal)
        transposes_S64x512x28x28_S28x28x64x512_2_3_0_1) shapeCasts_S28x28x64x512_S784x64x512 := by
  show StableHlo.after hostOps0 (fun b => m (c, b)) (Proc.devRef .tc main_call0_v1) = _
  after_results
  rfl

/-- The region finds the first weight matrix scaled by the scalar constant. -/
theorem V_scaled (c : Dev nD) : (V m c main_call0_v3 : S512x32.Idx → EReal)
    = mulf (m ((c : Thread nD τ).loc main_arg1) : S512x32.Idx → EReal)
        (broadcastInDim S512x32 ![] bcast_S_S512x32 (constant (F := Ideal) S_ .f32 0x3AA72F05#32)) := by
  show StableHlo.after hostOps0 (fun b => m (c, b)) (Proc.devRef .tc main_call0_v3) = _
  after_results
  rfl

/-- The result buffer after the lines that follow the region: the output array laid back to [b, c, h, w]. -/
theorem tail_result (c : Dev nD) : (Pipeline.afterTail₀ cfgs (dats m) 0 (V0 m) [hostOps1] c main_v0 : S64x512x28x28.Idx → EReal)
    = transpose S64x512x28x28 [2, 3, 0, 1] (shapeCast S28x28x64x512 ((dats m 0 c).arrAt 3 cfg0.N : S784x64x512.Idx → EReal)
        shapeCasts_S784x64x512_S28x28x64x512) transposes_S28x28x64x512_S64x512x28x28_2_3_0_1 := by
  have hw : (Pipeline.withArrays spec0 c (V0 m c) (fun w => (dats m 0 c).arrAt w cfg0.N)
        (Proc.devRef .tc (Pipeline.arrRef spec0 3)) : S784x64x512.Idx → EReal) = ((dats m 0 c).arrAt 3 cfg0.N : S784x64x512.Idx → EReal) :=
    Pipeline.withArrays_arr spec0 launch0.win.arr_inj c _ _ 3
  unfold Pipeline.afterTail₀
  show StableHlo.after hostOps1 _ (Proc.devRef .tc main_v0) = _
  after_results
  refine Eq.trans ?_ (congrArg (fun Y : S784x64x512.Idx → EReal => transpose S64x512x28x28 [2, 3, 0, 1]
    (shapeCast S28x28x64x512 Y shapeCasts_S784x64x512_S28x28x64x512) transposes_S28x28x64x512_S64x512x28x28_2_3_0_1) hw)
  rfl

/-- The result, as one function of the argument arrays. -/
theorem result_eq (c : Dev nD) : (Pipeline.afterTail₀ cfgs (dats m) 0 (V0 m) [hostOps1] c main_v0 : S64x512x28x28.Idx → EReal)
    = SE.G (m ((c : Thread nD τ).loc main_arg0)) (m ((c : Thread nD τ).loc main_arg1)) (m ((c : Thread nD τ).loc main_arg2))
        (Ideal.ofBits .f32 0x3AA72F05#32) := by
  rw [tail_result, Arr.final]
  unfold Arr.whole
  rw [V_relaid, V_scaled, V_main_arg2]
  exact SE.spatialFirst_layout _ _ _ (constant (F := Ideal) S_ .f32 0x3AA72F05#32) _ _ _ _ _

/-- The frame run re-posted: the result array at `SE.G` of the arguments, the arguments unchanged. -/
theorem run : θ_run defs (onTc (τ := τ) (main (F := Ideal))) ⟨m, fun _ => 0, ρ⟩ fun r => ∀ c : Dev nD,
      r.2.mem ((c : Thread nD τ).loc main_v0) = SE.G (m ((c : Thread nD τ).loc main_arg0)) (m ((c : Thread nD τ).loc main_arg1))
          (m ((c : Thread nD τ).loc main_arg2)) (Ideal.ofBits .f32 0x3AA72F05#32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v0 (Pipeline.mem_restRefs_of main_v0 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).1 2).trans (((dats m 0 c).arrAt_in 2 rfl _).trans ((A_eq m c 2).trans (V_main_arg2 m c)))⟩)
    (run_main m ρ)

end Cert.KernelIdeal.Run

end
-- ==== Proof.ReferenceBody.lean ====
/-
  What the reference's body stores, element by element, at the exact values.

  The body holds a block [4, 512, 784] (batch entry, channel, spatial position) of the flattened activation, the scaled
  first weight matrix and the second one. It pools the block over its last axis, multiplies by the two matrices with a
  clamp at zero between them, applies the logistic function and multiplies every spatial position of a batch entry by
  that entry's gate. So the stored value at (p, c, k) is the loaded one times `SE.gate` of batch entry p's rows at c.
-/
import proofs.«157007_g2000404850106807_pallasbulk_276_18_alg».proof.Proof.Gen.ReferenceIdeal.Skeleton
import proofs.«157007_g2000404850106807_pallasbulk_276_18_alg».proof.Proof.Gate
import proofs.«157007_g2000404850106807_pallasbulk_276_18_alg».proof.Proof.LibPlainMatmul
import Idealize.ShloMosaic.Lib.ValueLayout
import Idealize.ShloMosaic.PureOps.Ideal.Laws

noncomputable section

open scoped BigOperators

namespace Cert.ReferenceIdeal.Body

open Idealize.ShloMosaic Idealize.ShloMosaic.ValueIdx
open Cert.ReferenceIdeal Cert.ReferenceIdeal.Gen

/-- The pool: the sum over the block's last axis, at batch entry `p` and channel `c`, is the sum over the spatial
    positions of the block's entries there. -/
theorem pool_apply (v : FVec Ideal S4x512x784 .f32) (p : Fin 4) (c : Fin 512) :
    multiReduction .add [2] S4x512 v 0x00000000#32 reduces_S4x512x784_S4x512 (.inl rfl) rfl (ix2 p c)
      = ∑ k : Fin 784, v (ix3 p c k) :=
  (Ideal.multiReduction_add_single v 0x00000000#32 reduces_S4x512x784_S4x512 (.inl rfl) rfl (ix2 p c)).trans
    (Finset.sum_congr rfl fun k _ => congrArg v (funext fun a => Fin.ext (by
      match a with
      | ⟨0, _⟩ => rfl
      | ⟨1, _⟩ => rfl
      | ⟨2, _⟩ => rfl)))

/-- A [4, 512] array given a trailing unit axis reads, at (p, c, u), the array at (p, c). -/
theorem column_apply (v : FVec Ideal S4x512 .f32) (p : Fin 4) (c : Fin 512) (u : Fin 1) :
    shapeCast S4x512x1 v shapeCasts_S4x512_S4x512x1 (ix3 p c u) = v (ix2 p c) :=
  shapeCast_apply v shapeCasts_S4x512_S4x512x1 (ix3 p c u) (ix2 p c) (by
    have hu : u.val = 0 := by omega
    rw [Shape.rowMajor_val_three, Shape.rowMajor_val_two]
    show p.val * 512 + c.val = (p.val * 512 + c.val) * 1 + u.val
    omega)

/-- A [4, 512, 1] array spread over 784 spatial positions reads, at (p, c, k), the array at (p, c, 0). -/
theorem spread_apply (v : FVec Ideal S4x512x1 .f32) (p : Fin 4) (c : Fin 512) (k : Fin 784) :
    broadcastTo S4x512x784 v broadcasts_S4x512x1_S4x512x784 (ix3 p c k) = v (ix3 p c (0 : Fin 1)) :=
  broadcastTo_apply v broadcasts_S4x512x1_S4x512x784 (ix3 p c k) (ix3 p c (0 : Fin 1)) fun a => by
    match a with
    | ⟨0, _⟩ => rfl
    | ⟨1, _⟩ => rfl
    | ⟨2, _⟩ => rfl

/-- The stored value at (p, c, k): the loaded entry times the gate of batch entry `p` at channel `c`. -/
theorem payload_apply (x0 : FVec Ideal S4x512x784 .f32) (x1 : FVec Ideal S512x32 .f32) (x2 : FVec Ideal S32x512 .f32)
    (p : Fin 4) (c : Fin 512) (k : Fin 784) :
    k0_pay1 (F := Ideal) x0 x1 x2 (ix3 p c k)
      = x0 (ix3 p c k) * SE.gate (fun c' k' => x0 (ix3 p c' k')) (fun c' j => x1 (ix2 c' j)) (fun j c => x2 (ix2 j c)) c := by
  unfold k0_pay1
  simp only [shapeCast_self]
  refine congrArg (x0 (ix3 p c k) * ·) ?_
  refine (spread_apply _ p c k).trans ?_
  refine (column_apply _ p c (0 : Fin 1)).trans ?_
  unfold SE.gate
  refine congrArg Ideal.logistic ?_
  refine (matmul_plain_zero_apply none _ x2 p c).trans ?_
  refine Finset.sum_congr rfl fun j _ => ?_
  refine congrArg (· * x2 (ix2 j c)) ?_
  refine congrArg (max · (Ideal.ofBits .f32 0x00000000#32)) ?_
  refine (matmul_plain_zero_apply none _ x1 p j).trans ?_
  refine Finset.sum_congr rfl fun c' _ => ?_
  refine congrArg (· * x1 (ix2 c' j)) ?_
  exact pool_apply x0 p c'

/-- A block whose batch entry `p` is batch entry `e p` of a [64, 512, 784] array `X`: what the body stores at (p, c, k)
    is the whole-array function `SE.spatialLast X` at (e p, c, k), the two weight matrices being the ones loaded. -/
theorem block_value (X : S64x512x784.Idx → EReal) (x0 : FVec Ideal S4x512x784 .f32) (x1 : FVec Ideal S512x32 .f32)
    (x2 : FVec Ideal S32x512 .f32) (e : Fin 4 → Fin 64) (h0 : ∀ p q k, x0 (ix3 p q k) = X (ix3 (e p) q k))
    (p : Fin 4) (q : Fin 512) (k : Fin 784) :
    k0_pay1 (F := Ideal) x0 x1 x2 (ix3 p q k) = SE.spatialLast X x1 x2 (ix3 (e p) q k) := by
  refine (payload_apply x0 x1 x2 p q k).trans ?_
  unfold SE.spatialLast
  show x0 (ix3 p q k) * SE.gate _ _ _ q = X (ix3 (e p) q k) * SE.gate _ _ _ q
  rw [h0 p q k]
  exact congrArg (X (ix3 (e p) q k) * ·) (SE.gate_congr (fun c' k' => h0 p c' k') (fun _ _ => rfl) (fun _ _ => rfl) q)

end Cert.ReferenceIdeal.Body

end
-- ==== Proof.ReferenceArray.lean ====
/-
  From blocks to the array: what the reference's output array holds after the last grid point.

  Grid point t works on batch entries 4t … 4t + 3: its input block is rows [4t + p, ·, ·] of the flattened activation,
  both weight matrices are whole, and it writes back rows [4t + p, ·, ·] of the output. Each written block is the
  restriction of ONE whole-array function (`SE.spatialLast` of the arrays as the region finds them), and the sixteen
  blocks tile the output, so the output ends holding that function.
-/
import proofs.«157007_g2000404850106807_pallasbulk_276_18_alg».proof.Proof.Gen.ReferenceIdeal.Frame
import proofs.«157007_g2000404850106807_pallasbulk_276_18_alg».proof.Proof.ReferenceBody
import Idealize.ShloMosaic.Lib.Pipeline.Value

set_option maxRecDepth 16384

noncomputable section

namespace Cert.ReferenceIdeal.Arr

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the activation's and the output's blocks move along the batch axis with the
    point, nothing else moves. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem point_lt (t : Fin cfg0.N) : t.val < 16 := lt_of_lt_of_eq t.isLt N_0

/-- Batch entry `p` of point `t`'s block is batch entry 4t + p of the array. -/
def entry (t : Fin cfg0.N) (p : Fin 4) : Fin 64 := ⟨t.val * 4 + p.val, by have := point_lt t; have := p.isLt; omega⟩

/-- The whole-array function the output ends holding, of the arrays as the region finds them. -/
def whole (c : Dev nD) : S64x512x784.Idx → EReal :=
  SE.spatialLast (V m c main_v0 : S64x512x784.Idx → EReal) (V m c main_v2 : S512x32.Idx → EReal)
    (V m c main_arg2 : S32x512.Idx → EReal)

/-- The activation's block at point `t`, element by element. -/
theorem iblk0_apply (c : Dev nD) (t : Fin cfg0.N) (p : Fin 4) (q : Fin 512) (k : Fin 784) :
    iblk m c 0 t (ix3 p q k) = (V m c main_v0 : S64x512x784.Idx → EReal) (ix3 (entry t p) q k) := by
  show V m c main_v0 (((cfg0.win 0).blk t).view.emb (ix3 p q k)) = _
  have he : ((cfg0.win 0).blk t).view.emb (ix3 p q k) = ix3 (entry t p) q k := by
    obtain ⟨e0, e1, e2, -⟩ := idx_facts t
    funext a; apply Fin.ext
    match a with
    | ⟨0, _⟩ => show win0_0.index t (0 : Fin 3) * 4 + 1 * p.val = t.val * 4 + p.val; omega
    | ⟨1, _⟩ => show win0_0.index t (1 : Fin 3) * 512 + 1 * q.val = q.val; omega
    | ⟨2, _⟩ => show win0_0.index t (2 : Fin 3) * 784 + 1 * k.val = k.val; omega
  rw [he]

/-- The first weight matrix's block is the whole matrix. -/
theorem iblk1_eq (c : Dev nD) (t : Fin cfg0.N) : iblk m c 1 t = (V m c main_v2 : S512x32.Idx → EReal) := by
  funext z
  show V m c main_v2 (((cfg0.win 1).blk t).view.emb z) = _
  have he : ((cfg0.win 1).blk t).view.emb z = z := by
    obtain ⟨-, -, -, e0, e1, -⟩ := idx_facts t
    funext a; apply Fin.ext
    match a with
    | ⟨0, _⟩ => show win0_1.index t (0 : Fin 2) * 512 + 1 * (z 0).val = (z 0).val; omega
    | ⟨1, _⟩ => show win0_1.index t (1 : Fin 2) * 32 + 1 * (z 1).val = (z 1).val; omega
  rw [he]

/-- The second weight matrix's block is the whole matrix. -/
theorem iblk2_eq (c : Dev nD) (t : Fin cfg0.N) : iblk m c 2 t = (V m c main_arg2 : S32x512.Idx → EReal) := by
  funext z
  show V m c main_arg2 (((cfg0.win 2).blk t).view.emb z) = _
  have he : ((cfg0.win 2).blk t).view.emb z = z := by
    obtain ⟨-, -, -, -, -, e0, e1, -⟩ := idx_facts t
    funext a; apply Fin.ext
    match a with
    | ⟨0, _⟩ => show win0_2.index t (0 : Fin 2) * 32 + 1 * (z 0).val = (z 0).val; omega
    | ⟨1, _⟩ => show win0_2.index t (1 : Fin 2) * 512 + 1 * (z 1).val = (z 1).val; omega
  rw [he]

/-- Where element (p, q, k) of the output's block at point `t` sits in the array. -/
theorem emb3_apply (t : Fin cfg0.N) (p : Fin 4) (q : Fin 512) (k : Fin 784) :
    ((cfg0.win 3).blk t).view.emb (ix3 p q k) = ix3 (entry t p) q k := by
  obtain ⟨-, -, -, -, -, -, -, e0, e1, e2⟩ := idx_facts t
  funext a; apply Fin.ext
  match a with
  | ⟨0, _⟩ => show win0_3.index t (0 : Fin 3) * 4 + 1 * p.val = t.val * 4 + p.val; omega
  | ⟨1, _⟩ => show win0_3.index t (1 : Fin 3) * 512 + 1 * q.val = q.val; omega
  | ⟨2, _⟩ => show win0_3.index t (2 : Fin 3) * 784 + 1 * k.val = k.val; omega

/-- What point `t` writes back is block `t` of the whole-array function. -/
theorem flushed_eq (c : Dev nD) (t : Fin cfg0.N) :
    (dats m 0 c).flushed 3 t = ((cfg0.win 3).blk t).view.read (Elt Ideal) (whole m c) := by
  show (cfg0.win 3).cut (grid0.coords t) ((dats m 0 c).after 3 t) = _
  rw [after0_3]
  unfold out0_3
  rw [View.canon_unit_zero hz3]
  simp only [View.ld_unit_zero (S := S4x512x784) hz3, View.ld_unit_zero (S := S512x32) hz2, View.ld_unit_zero (S := S32x512) hz2]
  rw [iblk1_eq, iblk2_eq]
  funext y
  obtain ⟨p, q, k, rfl⟩ : ∃ (p : Fin 4) (q : Fin 512) (k : Fin 784), y = ix3 p q k := ⟨y 0, y 1, y 2, @eq_ix3 4 512 784 y⟩
  show k0_pay1 (F := Ideal) (iblk m c 0 t) _ _ (ix3 p q k) = whole m c (((cfg0.win 3).blk t).view.emb (ix3 p q k))
  rw [emb3_apply]
  exact Body.block_value (V m c main_v0 : S64x512x784.Idx → EReal) (iblk m c 0 t) (V m c main_v2 : S512x32.Idx → EReal)
    (V m c main_arg2 : S32x512.Idx → EReal) (entry t) (fun p q k => iblk0_apply m c t p q k) p q k

/-- An index of the output array is in point `t`'s block iff each coordinate is in the block's range on its axis. -/
theorem mem_blk (t : Fin cfg0.N) (i : S64x512x784.Idx) :
    i ∈ ((cfg0.win 3).blk t).view.set ↔ ∀ a : Fin 3, win0_3.index t a * S4x512x784.size a ≤ (i a).val ∧ (i a).val < win0_3.index t a * S4x512x784.size a + S4x512x784.size a := by
  show i ∈ ((View.whole main_v3).slice (win0_3.rect t)).set ↔ _
  rw [View.set_slice_whole, Rect.mem_set_unit]
  exact Iff.rfl

/-- Every index of the output array is in the block of the point its batch entry belongs to. -/
theorem cover (i : S64x512x784.Idx) : ∃ t : Fin cfg0.N, (cfg0.win 3).flush t = true ∧ i ∈ ((cfg0.win 3).blk t).view.set := by
  have h0 : (i 0).val < 64 := (i 0).isLt
  have h1 : (i 1).val < 512 := (i 1).isLt
  have h2 : (i 2).val < 784 := (i 2).isLt
  have hN : cfg0.N = 16 := N_0
  refine ⟨⟨(i 0).val / 4, by rw [hN]; omega⟩, flush0_3 _, ?_⟩
  obtain ⟨-, -, -, -, -, -, -, e0, e1, e2⟩ := idx_facts ⟨(i 0).val / 4, by rw [hN]; omega⟩
  rw [mem_blk]
  intro a
  match a with
  | ⟨0, _⟩ =>
    show win0_3.index _ (0 : Fin 3) * 4 ≤ (i 0).val ∧ (i 0).val < win0_3.index _ (0 : Fin 3) * 4 + 4
    rw [e0]; show (i 0).val / 4 * 4 ≤ (i 0).val ∧ (i 0).val < (i 0).val / 4 * 4 + 4; omega
  | ⟨1, _⟩ =>
    show win0_3.index _ (1 : Fin 3) * 512 ≤ (i 1).val ∧ (i 1).val < win0_3.index _ (1 : Fin 3) * 512 + 512
    rw [e1]; omega
  | ⟨2, _⟩ =>
    show win0_3.index _ (2 : Fin 3) * 784 ≤ (i 2).val ∧ (i 2).val < win0_3.index _ (2 : Fin 3) * 784 + 784
    rw [e2]; omega

/-- The output array after the last point is the whole-array function. -/
theorem final (c : Dev nD) : (dats m 0 c).arrAt 3 cfg0.N = whole m c :=
  (dats m 0 c).arrAt_eq_of_cover 3 (whole m c) (fun t _ => flushed_eq m c t) cover

end Cert.ReferenceIdeal.Arr

end
-- ==== Proof.ReferenceRun.lean ====
/-
  The reference's run, read: its result array as `SE.G` of the argument arrays.

  Before the region the program flattens the activation's two spatial axes to [b, c, k] and scales the first weight
  matrix by a scalar constant; the region's output array ends holding `SE.spatialLast` of those (the blocks-to-array
  module); after the region the program restores [b, c, h, w]. Composed and read index by index that is `SE.G`.
-/
import proofs.«157007_g2000404850106807_pallasbulk_276_18_alg».proof.Proof.ReferenceArray
import proofs.«157007_g2000404850106807_pallasbulk_276_18_alg».proof.Proof.Layout
import Idealize.ShloMosaic.Lib.StableHlo.Run

set_option maxRecDepth 16384

noncomputable section

namespace Cert.ReferenceIdeal.Run

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

variable (m : (ℓ : Loc nD τ sig) → Buf (Elt Ideal) ℓ) (ρ : Dev nD → PrngReg)

/-- The region finds the activation with its two spatial axes flattened. -/
theorem V_flat (c : Dev nD) : (V m c main_v0 : S64x512x784.Idx → EReal)
    = shapeCast S64x512x784 (m ((c : Thread nD τ).loc main_arg0) : S64x512x28x28.Idx → EReal) shapeCasts_S64x512x28x28_S64x512x784 := by
  show StableHlo.after hostOps0 (fun b => m (c, b)) (Proc.devRef .tc main_v0) = _
  after_results
  rfl

/-- The region finds the first weight matrix scaled by the scalar constant. -/
theorem V_scaled (c : Dev nD) : (V m c main_v2 : S512x32.Idx → EReal)
    = mulf (m ((c : Thread nD τ).loc main_arg1) : S512x32.Idx → EReal)
        (broadcastInDim S512x32 ![] bcast_S_S512x32 (constant (F := Ideal) S_ .f32 0x3AA72F05#32)) := by
  show StableHlo.after hostOps0 (fun b => m (c, b)) (Proc.devRef .tc main_v2) = _
  after_results

/-- The result buffer after the line that follows the region: the output array with [b, c, h, w] restored. -/
theorem tail_result (c : Dev nD) : (Pipeline.afterTail₀ cfgs (dats m) 0 (V0 m) [hostOps1] c main_v4 : S64x512x28x28.Idx → EReal)
    = shapeCast S64x512x28x28 ((dats m 0 c).arrAt 3 cfg0.N : S64x512x784.Idx → EReal) shapeCasts_S64x512x784_S64x512x28x28 := by
  have hw : (Pipeline.withArrays spec0 c (V0 m c) (fun w => (dats m 0 c).arrAt w cfg0.N)
        (Proc.devRef .tc (Pipeline.arrRef spec0 3)) : S64x512x784.Idx → EReal) = ((dats m 0 c).arrAt 3 cfg0.N : S64x512x784.Idx → EReal) :=
    Pipeline.withArrays_arr spec0 launch0.win.arr_inj c _ _ 3
  unfold Pipeline.afterTail₀
  show StableHlo.after hostOps1 _ (Proc.devRef .tc main_v4) = _
  after_results
  refine Eq.trans ?_ (congrArg (fun Y : S64x512x784.Idx → EReal =>
    shapeCast S64x512x28x28 Y shapeCasts_S64x512x784_S64x512x28x28) hw)
  rfl

/-- The result, as one function of the argument arrays. -/
theorem result_eq (c : Dev nD) : (Pipeline.afterTail₀ cfgs (dats m) 0 (V0 m) [hostOps1] c main_v4 : S64x512x28x28.Idx → EReal)
    = SE.G (m ((c : Thread nD τ).loc main_arg0)) (m ((c : Thread nD τ).loc main_arg1)) (m ((c : Thread nD τ).loc main_arg2))
        (Ideal.ofBits .f32 0x3AA72F05#32) := by
  rw [tail_result, Arr.final]
  unfold Arr.whole
  rw [V_flat, V_scaled, V_main_arg2]
  exact SE.spatialLast_layout _ _ _ (constant (F := Ideal) S_ .f32 0x3AA72F05#32) _ _ _

/-- The frame run re-posted: the result array at `SE.G` of the arguments, the arguments unchanged. -/
theorem run : θ_run defs (onTc (τ := τ) (main (F := Ideal))) ⟨m, fun _ => 0, ρ⟩ fun r => ∀ c : Dev nD,
      r.2.mem ((c : Thread nD τ).loc main_v4) = SE.G (m ((c : Thread nD τ).loc main_arg0)) (m ((c : Thread nD τ).loc main_arg1))
          (m ((c : Thread nD τ).loc main_arg2)) (Ideal.ofBits .f32 0x3AA72F05#32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).1 2).trans (((dats m 0 c).arrAt_in 2 rfl _).trans ((A_eq m c 2).trans (V_main_arg2 m c)))⟩)
    (run_main m ρ)

end Cert.ReferenceIdeal.Run

end
-- ==== Proof.lean ====
/- A squeeze-and-excite block over an activation x[b, c, h, w] (64 × 512 × 28 × 28) with weights w1 (512 × 32) and
   w2 (32 × 512), computed by two programs that hold the activation in different arrangements.

   Both compute, for every batch entry b and channel c, the gate
       s[b, c] = logistic (∑_j max (∑_c' (∑_{h,w} x[b, c', h, w]) · (w1[c', j] · K), 0) · w2[j, c])
   with the same scalar K, and return x[b, c, h, w] · s[b, c]. One transposes the activation to [h, w, b, c], flattens
   the spatial axes to k = 28·h + w and works on blocks [784, 8, 512] of eight batch entries, pooling over the leading
   axis; the other flattens to [b, c, k] and works on blocks [4, 512, 784] of four batch entries, pooling over the last
   axis. The pooled sums run over the same 784 terms in the same order k, the two matrix products contract over the
   same index sets, and the scalar is one bit pattern on both sides, so on the extended reals the two results are ONE
   function of the arguments, `SE.G` (Proof/Gate.lean), with no algebraic law beyond re-indexing and no use of the
   inputs' finiteness.

   Proof/KernelBody.lean and Proof/ReferenceBody.lean read what each body stores at an element; Proof/KernelArray.lean
   and Proof/ReferenceArray.lean pass from the blocks each grid point writes back to the whole output array;
   Proof/Layout.lean reads the re-arrangements before and after the region at an index; Proof/KernelRun.lean and
   Proof/ReferenceRun.lean compose these into each program's result. Here the two runs are put side by side.
   The three frames are the generated ones; the idealization rewrote nothing, so it is preserved trivially. -/
import proofs.«157007_g2000404850106807_pallasbulk_276_18_alg».proof.Defs
import proofs.«157007_g2000404850106807_pallasbulk_276_18_alg».proof.Proof.Gen.Kernel
import proofs.«157007_g2000404850106807_pallasbulk_276_18_alg».proof.Proof.Gen.Kernel.Frame
import proofs.«157007_g2000404850106807_pallasbulk_276_18_alg».proof.Proof.Gen.KernelIdeal
import proofs.«157007_g2000404850106807_pallasbulk_276_18_alg».proof.Proof.Gen.KernelIdeal.Frame
import proofs.«157007_g2000404850106807_pallasbulk_276_18_alg».proof.Proof.Gen.ReferenceIdeal
import proofs.«157007_g2000404850106807_pallasbulk_276_18_alg».proof.Proof.Gen.ReferenceIdeal.Frame
import proofs.«157007_g2000404850106807_pallasbulk_276_18_alg».proof.Proof.Gen.Pre_finite_inputs
import proofs.«157007_g2000404850106807_pallasbulk_276_18_alg».proof.Proof.KernelRun
import proofs.«157007_g2000404850106807_pallasbulk_276_18_alg».proof.Proof.ReferenceRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- No operation was rewritten on the way to the idealized kernel. -/
theorem preserves : Cert.preserves_Kernel_KernelIdeal := trivial

/-- Both programs end with their result array at `SE.G` of the argument arrays; the arguments agree, so the results do. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun r h c => ?_) (Cert.ReferenceIdeal.Run.run m' ρ')
  obtain ⟨h0, h1, h2, h3⟩ := h c
  obtain ⟨a0, a1, a2⟩ := hagree c
  refine ⟨h0.trans ?_, h1, h2, h3⟩
  rw [a0, a1, a2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
